-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x2048 : Shape := ⟨3, ![4, 2048, 2048]⟩
abbrev S8192x2048 : Shape := ⟨2, ![8192, 2048]⟩
abbrev S2048x8192 : Shape := ⟨2, ![2048, 8192]⟩
abbrev S_ : Shape := ⟨0, ![]⟩

class Facts : Prop where
  bcast_S_S4x2048x2048 : S_.BroadcastsInDim S4x2048x2048 (![] : Fin 0 → Fin S4x2048x2048.rank)
  reducesTo_S4x2048x2048_S_d0_1_2 : S4x2048x2048.ReducesTo [0, 1, 2] S_
  h_S_ : 0 < S_.numel
  bcast_S_S8192x2048 : S_.BroadcastsInDim S8192x2048 (![] : Fin 0 → Fin S8192x2048.rank)
  reducesTo_S8192x2048_S_d0_1 : S8192x2048.ReducesTo [0, 1] S_
  bcast_S_S2048x8192 : S_.BroadcastsInDim S2048x8192 (![] : Fin 0 → Fin S2048x8192.rank)
  reducesTo_S2048x8192_S_d0_1 : S2048x8192.ReducesTo [0, 1] S_

variable [Facts]

def fn_part1 {F : FTy → Type} [FloatOps F] (main_v13 : IVec S_ 1) (main_v16 : IVec S2048x8192 1) : IVec S_ 1 :=
  let main_c_5 : IVec S_ 1 := constantI S_ 1 1#1
  let main_v17 : IVec S_ 1 := (fun x v => Host.reduce IntOp.andi x v reducesTo_S2048x8192_S_d0_1 h_S_) main_v16 main_c_5
  let main_v18 : IVec S_ 1 := andi main_v13 main_v17
  main_v18

def fn {F : FTy → Type} [FloatOps F] (main_arg0 : FVec F S4x2048x2048 .f32) (main_arg1 : FVec F S8192x2048 .f32) (main_arg2 : FVec F S8192x2048 .f32) (main_arg3 : FVec F S2048x8192 .f32) : IVec S_ 1 :=
  let main_v0 : FVec F S4x2048x2048 .f32 := Host.absf main_arg0
  let main_cst : FVec F S_ .f32 := constant S_ .f32 0x7F800000#32
  let main_v1 : FVec F S4x2048x2048 .f32 := broadcastInDim S4x2048x2048 ![] bcast_S_S4x2048x2048 main_cst
  let main_v2 : IVec S4x2048x2048 1 := cmpf .olt main_v0 main_v1
  let main_c : IVec S_ 1 := constantI S_ 1 1#1
  let main_v3 : IVec S_ 1 := (fun x v => Host.reduce IntOp.andi x v reducesTo_S4x2048x2048_S_d0_1_2 h_S_) main_v2 main_c
  let main_v4 : FVec F S8192x2048 .f32 := Host.absf main_arg1
  let main_cst_0 : FVec F S_ .f32 := constant S_ .f32 0x7F800000#32
  let main_v5 : FVec F S8192x2048 .f32 := broadcastInDim S8192x2048 ![] bcast_S_S8192x2048 main_cst_0
  let main_v6 : IVec S8192x2048 1 := cmpf .olt main_v4 main_v5
  let main_c_1 : IVec S_ 1 := constantI S_ 1 1#1
  let main_v7 : IVec S_ 1 := (fun x v => Host.reduce IntOp.andi x v reducesTo_S8192x2048_S_d0_1 h_S_) main_v6 main_c_1
  let main_v8 : IVec S_ 1 := andi main_v3 main_v7
  let main_v9 : FVec F S8192x2048 .f32 := Host.absf main_arg2
  let main_cst_2 : FVec F S_ .f32 := constant S_ .f32 0x7F800000#32
  let main_v10 : FVec F S8192x2048 .f32 := broadcastInDim S8192x2048 ![] bcast_S_S8192x2048 main_cst_2
  let main_v11 : IVec S8192x2048 1 := cmpf .olt main_v9 main_v10
  let main_c_3 : IVec S_ 1 := constantI S_ 1 1#1
  let main_v12 : IVec S_ 1 := (fun x v => Host.reduce IntOp.andi x v reducesTo_S8192x2048_S_d0_1 h_S_) main_v11 main_c_3
  let main_v13 : IVec S_ 1 := andi main_v8 main_v12
  let main_v14 : FVec F S2048x8192 .f32 := Host.absf main_arg3
  let main_cst_4 : FVec F S_ .f32 := constant S_ .f32 0x7F800000#32
  let main_v15 : FVec F S2048x8192 .f32 := broadcastInDim S2048x8192 ![] bcast_S_S2048x8192 main_cst_4
  let main_v16 : IVec S2048x8192 1 := cmpf .olt main_v14 main_v15
  fn_part1 (F := F) main_v13 main_v16
-- ==== Kernel.lean ====
abbrev S4x2048x2048 : Shape := ⟨3, ![4, 2048, 2048]⟩
abbrev S8192x2048 : Shape := ⟨2, ![8192, 2048]⟩
abbrev S2048x8192 : Shape := ⟨2, ![2048, 8192]⟩
abbrev S_ : Shape := ⟨0, ![]⟩
abbrev S512x2048 : Shape := ⟨2, ![512, 2048]⟩
abbrev S2048x512 : Shape := ⟨2, ![2048, 512]⟩
abbrev S512x512 : Shape := ⟨2, ![512, 512]⟩

abbrev nBuf : Space → Nat
  | .hbm => 76
  | .vmem => 10
  | .smem => 0
  | _ => 0

abbrev bufTy : (tb : Table) → Fin (tcTables nBuf tb) → BufTy
  | .hbm, ⟨0, _⟩ => ⟨S4x2048x2048, .f32⟩
  | .hbm, ⟨1, _⟩ => ⟨S8192x2048, .f32⟩
  | .hbm, ⟨2, _⟩ => ⟨S8192x2048, .f32⟩
  | .hbm, ⟨3, _⟩ => ⟨S2048x8192, .f32⟩
  | .hbm, ⟨4, _⟩ => ⟨S8192x2048, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S8192x2048, .f32⟩
  | .hbm, ⟨12, _⟩ => ⟨S8192x2048, .f32⟩
  | .hbm, ⟨13, _⟩ => ⟨S8192x2048, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S8192x2048, .f32⟩
  | .hbm, ⟨18, _⟩ => ⟨S8192x2048, .f32⟩
  | .hbm, ⟨19, _⟩ => ⟨S_, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S8192x2048, .bf16⟩
  | .hbm, ⟨27, _⟩ => ⟨S8192x2048, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S8192x2048, .f32⟩
  | .hbm, ⟨35, _⟩ => ⟨S8192x2048, .f32⟩
  | .hbm, ⟨36, _⟩ => ⟨S8192x2048, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S8192x2048, .f32⟩
  | .hbm, ⟨41, _⟩ => ⟨S8192x2048, .f32⟩
  | .hbm, ⟨42, _⟩ => ⟨S_, .f32⟩
  | .hbm, ⟨43, _⟩ => ⟨S8192x2048, .f32⟩
  | .hbm, ⟨44, _⟩ => ⟨S8192x2048, .f32⟩
  | .hbm, ⟨45, _⟩ => ⟨S8192x2048, .f32⟩
  | .hbm, ⟨46, _⟩ => ⟨S8192x2048, .f32⟩
  | .hbm, ⟨47, _⟩ => ⟨S8192x2048, .f32⟩
  | .hbm, ⟨48, _⟩ => ⟨S8192x2048, .f32⟩
  | .hbm, ⟨49, _⟩ => ⟨S8192x2048, .bf16⟩
  | .hbm, ⟨50, _⟩ => ⟨S2048x8192, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S2048x8192, .f32⟩
  | .hbm, ⟨58, _⟩ => ⟨S2048x8192, .f32⟩
  | .hbm, ⟨59, _⟩ => ⟨S2048x8192, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S2048x8192, .f32⟩
  | .hbm, ⟨64, _⟩ => ⟨S2048x8192, .f32⟩
  | .hbm, ⟨65, _⟩ => ⟨S_, .f32⟩
  | .hbm, ⟨66, _⟩ => ⟨S2048x8192, .f32⟩
  | .hbm, ⟨67, _⟩ => ⟨S2048x8192, .f32⟩
  | .hbm, ⟨68, _⟩ => ⟨S2048x8192, .f32⟩
  | .hbm, ⟨69, _⟩ => ⟨S2048x8192, .f32⟩
  | .hbm, ⟨70, _⟩ => ⟨S2048x8192, .f32⟩
  | .hbm, ⟨71, _⟩ => ⟨S2048x8192, .f32⟩
  | .hbm, ⟨72, _⟩ => ⟨S2048x8192, .bf16⟩
  | .hbm, ⟨73, _⟩ => ⟨S8192x2048, .f32⟩
  | .hbm, ⟨74, _⟩ => ⟨S8192x2048, .f32⟩
  | .hbm, ⟨75, _⟩ => ⟨S4x2048x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .bf16⟩
  | .local _ .vmem, ⟨3, _⟩ => ⟨S512x2048, .bf16⟩
  | .local _ .vmem, ⟨4, _⟩ => ⟨S512x2048, .bf16⟩
  | .local _ .vmem, ⟨5, _⟩ => ⟨S512x2048, .bf16⟩
  | .local _ .vmem, ⟨6, _⟩ => ⟨S2048x512, .bf16⟩
  | .local _ .vmem, ⟨7, _⟩ => ⟨S2048x512, .bf16⟩
  | .local _ .vmem, ⟨8, _⟩ => ⟨S512x2048, .f32⟩
  | .local _ .vmem, ⟨9, _⟩ => ⟨S512x2048, .f32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_cst_3 : Ref sig .tc := ⟨.hbm, 15, rfl⟩
abbrev main_call1_v0 : Ref sig .tc := ⟨.hbm, 16, rfl⟩
abbrev main_call1_v1 : Ref sig .tc := ⟨.hbm, 17, rfl⟩
abbrev main_call1_v2 : Ref sig .tc := ⟨.hbm, 18, rfl⟩
abbrev main_call1_v3 : Ref sig .tc := ⟨.hbm, 19, rfl⟩
abbrev main_call1_v4 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_4 : Ref sig .tc := ⟨.hbm, 28, rfl⟩
abbrev main_v14 : Ref sig .tc := ⟨.hbm, 29, rfl⟩
abbrev main_cst_5 : Ref sig .tc := ⟨.hbm, 30, rfl⟩
abbrev main_v15 : Ref sig .tc := ⟨.hbm, 31, rfl⟩
abbrev main_cst_6 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_7 : Ref sig .tc := ⟨.hbm, 37, rfl⟩
abbrev main_cst_8 : Ref sig .tc := ⟨.hbm, 38, rfl⟩
abbrev main_call3_v0 : Ref sig .tc := ⟨.hbm, 39, rfl⟩
abbrev main_call3_v1 : Ref sig .tc := ⟨.hbm, 40, rfl⟩
abbrev main_call3_v2 : Ref sig .tc := ⟨.hbm, 41, rfl⟩
abbrev main_call3_v3 : Ref sig .tc := ⟨.hbm, 42, rfl⟩
abbrev main_call3_v4 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_cst_9 : Ref sig .tc := ⟨.hbm, 51, rfl⟩
abbrev main_v27 : Ref sig .tc := ⟨.hbm, 52, rfl⟩
abbrev main_cst_10 : Ref sig .tc := ⟨.hbm, 53, rfl⟩
abbrev main_v28 : Ref sig .tc := ⟨.hbm, 54, rfl⟩
abbrev main_cst_11 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_cst_12 : Ref sig .tc := ⟨.hbm, 60, rfl⟩
abbrev main_cst_13 : Ref sig .tc := ⟨.hbm, 61, rfl⟩
abbrev main_call5_v0 : Ref sig .tc := ⟨.hbm, 62, rfl⟩
abbrev main_call5_v1 : Ref sig .tc := ⟨.hbm, 63, rfl⟩
abbrev main_call5_v2 : Ref sig .tc := ⟨.hbm, 64, rfl⟩
abbrev main_call5_v3 : Ref sig .tc := ⟨.hbm, 65, rfl⟩
abbrev main_call5_v4 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  reducesTo_S8192x2048_S_d0_1 : S8192x2048.ReducesTo [0, 1] S_
  h_S_ : 0 < S_.numel
  bcast_S_S8192x2048 : S_.BroadcastsInDim S8192x2048 (![] : Fin 0 → Fin S8192x2048.rank)
  bitsLt_bf16_f32 : FTy.bits .bf16 < FTy.bits .f32
  reducesTo_S2048x8192_S_d0_1 : S2048x8192.ReducesTo [0, 1] S_
  bcast_S_S2048x8192 : S_.BroadcastsInDim S2048x8192 (![] : Fin 0 → Fin S2048x8192.rank)
  shapeCasts_S4x2048x2048_S8192x2048 : S4x2048x2048.ShapeCasts S8192x2048
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  shapeCasts_S8192x2048_S4x2048x2048 : S8192x2048.ShapeCasts S4x2048x2048
  dot_S512x2048_S512x2048_S512x512_1_1_0_0_n_n_wf : DotDims.WF S512x2048 S512x2048 S512x512 [1] [1] [0] [0] [] []
  dot_S512x512_S2048x512_S512x2048_1_1_0_0_n_n_wf : DotDims.WF S512x512 S2048x512 S512x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S8192x2048.size a
  hwx0_0 : ∀ i : grid0.Coords, EltTy.bits .f32 = 32 ∨ (Rect.block (s := S8192x2048) S512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S8192x2048.size a
  hwx0_1 : ∀ i : grid0.Coords, EltTy.bits .bf16 = 32 ∨ (Rect.block (s := S8192x2048) S512x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x2048.size a ≤ S8192x2048.size a
  hwx0_2 : ∀ i : grid0.Coords, EltTy.bits .bf16 = 32 ∨ (Rect.block (s := S8192x2048) S512x2048.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x512.size a ≤ S2048x8192.size a
  hwx0_3 : ∀ i : grid0.Coords, EltTy.bits .bf16 = 32 ∨ (Rect.block (s := S2048x8192) S2048x512.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x2048.size a ≤ S8192x2048.size a
  hwx0_4 : ∀ i : grid0.Coords, EltTy.bits .f32 = 32 ∨ (Rect.block (s := S8192x2048) S512x2048.size (cc0_transform_4 i) (hinb0_4 i)).WholeWords (EltTy.packing .f32)

variable [Facts₀]

def dot_S512x2048_S512x2048_S512x512_1_1_0_0_n_n : DotDims S512x2048 S512x2048 S512x512 where
  lhsContracting := [1]
  rhsContracting := [1]
  lhsNonContracting := [0]
  rhsNonContracting := [0]
  lhsBatch := []
  rhsBatch := []
  wf := dot_S512x2048_S512x2048_S512x512_1_1_0_0_n_n_wf
def dot_S512x512_S2048x512_S512x2048_1_1_0_0_n_n : DotDims S512x512 S2048x512 S512x2048 where
  lhsContracting := [1]
  rhsContracting := [1]
  lhsNonContracting := [0]
  rhsNonContracting := [0]
  lhsBatch := []
  rhsBatch := []
  wf := dot_S512x512_S2048x512_S512x2048_1_1_0_0_n_n_wf

abbrev win0_0 : Pipeline.Window sig grid0 :=
  Pipeline.Window.ofSpec (Memref.whole main_v39) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v25) S512x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v38) S2048x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v40) S512x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x2048x2048 : Shape := ⟨3, ![4, 2048, 2048]⟩
abbrev S8192x2048 : Shape := ⟨2, ![8192, 2048]⟩
abbrev S2048x8192 : Shape := ⟨2, ![2048, 8192]⟩
abbrev S_ : Shape := ⟨0, ![]⟩
abbrev S4x2048x8192 : Shape := ⟨3, ![4, 2048, 8192]⟩

abbrev nBuf : Space → Nat
  | .hbm => 83
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S8192x2048, .f32⟩
  | .hbm, ⟨2, _⟩ => ⟨S8192x2048, .f32⟩
  | .hbm, ⟨3, _⟩ => ⟨S2048x8192, .f32⟩
  | .hbm, ⟨4, _⟩ => ⟨S8192x2048, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S8192x2048, .f32⟩
  | .hbm, ⟨12, _⟩ => ⟨S8192x2048, .f32⟩
  | .hbm, ⟨13, _⟩ => ⟨S8192x2048, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S8192x2048, .f32⟩
  | .hbm, ⟨18, _⟩ => ⟨S8192x2048, .f32⟩
  | .hbm, ⟨19, _⟩ => ⟨S_, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S8192x2048, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S8192x2048, .f32⟩
  | .hbm, ⟨34, _⟩ => ⟨S8192x2048, .f32⟩
  | .hbm, ⟨35, _⟩ => ⟨S8192x2048, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S8192x2048, .f32⟩
  | .hbm, ⟨40, _⟩ => ⟨S8192x2048, .f32⟩
  | .hbm, ⟨41, _⟩ => ⟨S_, .f32⟩
  | .hbm, ⟨42, _⟩ => ⟨S8192x2048, .f32⟩
  | .hbm, ⟨43, _⟩ => ⟨S8192x2048, .f32⟩
  | .hbm, ⟨44, _⟩ => ⟨S8192x2048, .f32⟩
  | .hbm, ⟨45, _⟩ => ⟨S8192x2048, .f32⟩
  | .hbm, ⟨46, _⟩ => ⟨S8192x2048, .f32⟩
  | .hbm, ⟨47, _⟩ => ⟨S8192x2048, .f32⟩
  | .hbm, ⟨48, _⟩ => ⟨S2048x8192, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S2048x8192, .f32⟩
  | .hbm, ⟨56, _⟩ => ⟨S2048x8192, .f32⟩
  | .hbm, ⟨57, _⟩ => ⟨S2048x8192, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S2048x8192, .f32⟩
  | .hbm, ⟨62, _⟩ => ⟨S2048x8192, .f32⟩
  | .hbm, ⟨63, _⟩ => ⟨S_, .f32⟩
  | .hbm, ⟨64, _⟩ => ⟨S2048x8192, .f32⟩
  | .hbm, ⟨65, _⟩ => ⟨S2048x8192, .f32⟩
  | .hbm, ⟨66, _⟩ => ⟨S2048x8192, .f32⟩
  | .hbm, ⟨67, _⟩ => ⟨S2048x8192, .f32⟩
  | .hbm, ⟨68, _⟩ => ⟨S2048x8192, .f32⟩
  | .hbm, ⟨69, _⟩ => ⟨S2048x8192, .f32⟩
  | .hbm, ⟨70, _⟩ => ⟨S4x2048x8192, .f32⟩
  | .hbm, ⟨71, _⟩ => ⟨S4x2048x8192, .f32⟩
  | .hbm, ⟨72, _⟩ => ⟨S4x2048x8192, .f32⟩
  | .hbm, ⟨73, _⟩ => ⟨S4x2048x8192, .f32⟩
  | .hbm, ⟨74, _⟩ => ⟨S_, .f32⟩
  | .hbm, ⟨75, _⟩ => ⟨S4x2048x8192, .f32⟩
  | .hbm, ⟨76, _⟩ => ⟨S4x2048x8192, .f32⟩
  | .hbm, ⟨77, _⟩ => ⟨S_, .f32⟩
  | .hbm, ⟨78, _⟩ => ⟨S4x2048x8192, .f32⟩
  | .hbm, ⟨79, _⟩ => ⟨S4x2048x8192, .f32⟩
  | .hbm, ⟨80, _⟩ => ⟨S4x2048x8192, .f32⟩
  | .hbm, ⟨81, _⟩ => ⟨S4x2048x8192, .f32⟩
  | .hbm, ⟨82, _⟩ => ⟨S4x2048x2048, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_cst_3 : Ref sig .tc := ⟨.hbm, 15, rfl⟩
abbrev main_call1_v0 : Ref sig .tc := ⟨.hbm, 16, rfl⟩
abbrev main_call1_v1 : Ref sig .tc := ⟨.hbm, 17, rfl⟩
abbrev main_call1_v2 : Ref sig .tc := ⟨.hbm, 18, rfl⟩
abbrev main_call1_v3 : Ref sig .tc := ⟨.hbm, 19, rfl⟩
abbrev main_call1_v4 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst_4 : Ref sig .tc := ⟨.hbm, 27, rfl⟩
abbrev main_v13 : Ref sig .tc := ⟨.hbm, 28, rfl⟩
abbrev main_cst_5 : Ref sig .tc := ⟨.hbm, 29, rfl⟩
abbrev main_v14 : Ref sig .tc := ⟨.hbm, 30, rfl⟩
abbrev main_cst_6 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst_7 : Ref sig .tc := ⟨.hbm, 36, rfl⟩
abbrev main_cst_8 : Ref sig .tc := ⟨.hbm, 37, rfl⟩
abbrev main_call3_v0 : Ref sig .tc := ⟨.hbm, 38, rfl⟩
abbrev main_call3_v1 : Ref sig .tc := ⟨.hbm, 39, rfl⟩
abbrev main_call3_v2 : Ref sig .tc := ⟨.hbm, 40, rfl⟩
abbrev main_call3_v3 : Ref sig .tc := ⟨.hbm, 41, rfl⟩
abbrev main_call3_v4 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_cst_9 : Ref sig .tc := ⟨.hbm, 49, rfl⟩
abbrev main_v25 : Ref sig .tc := ⟨.hbm, 50, rfl⟩
abbrev main_cst_10 : Ref sig .tc := ⟨.hbm, 51, rfl⟩
abbrev main_v26 : Ref sig .tc := ⟨.hbm, 52, rfl⟩
abbrev main_cst_11 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_cst_12 : Ref sig .tc := ⟨.hbm, 58, rfl⟩
abbrev main_cst_13 : Ref sig .tc := ⟨.hbm, 59, rfl⟩
abbrev main_call5_v0 : Ref sig .tc := ⟨.hbm, 60, rfl⟩
abbrev main_call5_v1 : Ref sig .tc := ⟨.hbm, 61, rfl⟩
abbrev main_call5_v2 : Ref sig .tc := ⟨.hbm, 62, rfl⟩
abbrev main_call5_v3 : Ref sig .tc := ⟨.hbm, 63, rfl⟩
abbrev main_call5_v4 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_call6_v0 : Ref sig .tc := ⟨.hbm, 72, rfl⟩
abbrev main_call6_v1 : Ref sig .tc := ⟨.hbm, 73, rfl⟩
abbrev main_call6_cst : Ref sig .tc := ⟨.hbm, 74, rfl⟩
abbrev main_call6_v2 : Ref sig .tc := ⟨.hbm, 75, rfl⟩
abbrev main_call6_v3 : Ref sig .tc := ⟨.hbm, 76, rfl⟩
abbrev main_call6_cst_0 : Ref sig .tc := ⟨.hbm, 77, rfl⟩
abbrev main_call6_v4 : Ref sig .tc := ⟨.hbm, 78, rfl⟩
abbrev main_call6_v5 : Ref sig .tc := ⟨.hbm, 79, rfl⟩
abbrev main_v38 : Ref sig .tc := ⟨.hbm, 80, rfl⟩
abbrev main_v39 : Ref sig .tc := ⟨.hbm, 81, rfl⟩
abbrev main_v40 : Ref sig .tc := ⟨.hbm, 82, rfl⟩

abbrev nD : Nat := 1
abbrev τ : Topo := Topo.v7x

variable {F : FTy → Type} [FloatOps F]

class Facts₀ : Prop where
  reducesTo_S8192x2048_S_d0_1 : S8192x2048.ReducesTo [0, 1] S_
  h_S_ : 0 < S_.numel
  bcast_S_S8192x2048 : S_.BroadcastsInDim S8192x2048 (![] : Fin 0 → Fin S8192x2048.rank)
  reducesTo_S2048x8192_S_d0_1 : S2048x8192.ReducesTo [0, 1] S_
  bcast_S_S2048x8192 : S_.BroadcastsInDim S2048x8192 (![] : Fin 0 → Fin S2048x8192.rank)
  bcast_S_S4x2048x8192 : S_.BroadcastsInDim S4x2048x8192 (![] : Fin 0 → Fin S4x2048x8192.rank)
  dot_S4x2048x2048_S8192x2048_S4x2048x8192_2_1_01_0_n_n_wf : DotDims.WF S4x2048x2048 S8192x2048 S4x2048x8192 [2] [1] [0, 1] [0] [] []
  dot_S4x2048x8192_S2048x8192_S4x2048x2048_2_1_01_0_n_n_wf : DotDims.WF S4x2048x8192 S2048x8192 S4x2048x2048 [2] [1] [0, 1] [0] [] []

variable [Facts₀]

def dot_S4x2048x2048_S8192x2048_S4x2048x8192_2_1_01_0_n_n : DotDims S4x2048x2048 S8192x2048 S4x2048x8192 where
  lhsContracting := [2]
  rhsContracting := [1]
  lhsNonContracting := [0, 1]
  rhsNonContracting := [0]
  lhsBatch := []
  rhsBatch := []
  wf := dot_S4x2048x2048_S8192x2048_S4x2048x8192_2_1_01_0_n_n_wf
def dot_S4x2048x8192_S2048x8192_S4x2048x2048_2_1_01_0_n_n : DotDims S4x2048x8192 S2048x8192 S4x2048x2048 where
  lhsContracting := [2]
  rhsContracting := [1]
  lhsNonContracting := [0, 1]
  rhsNonContracting := [0]
  lhsBatch := []
  rhsBatch := []
  wf := dot_S4x2048x8192_S2048x8192_S4x2048x2048_2_1_01_0_n_n_wf

class Facts : Prop extends Facts₀ where

variable [Facts]
-- ==== Proof.Spec.lean ====
/-
  The function both programs compute, stated once over arrays read at natural-number coordinates.

  With X the activations as an 8192 × 2048 matrix and U, G (8192 × 2048) and D (2048 × 8192) the three
  quantized weight matrices, hidden unit e of row r is
      hid r e = silu (∑ₖ X r k · U e k) · (∑ₖ X r k · G e k),      silu u = u · logistic u,
  and entry (r, d) of the result is  out r d = ∑ₑ hid r e · D d e  over all 8192 hidden units.
  A sum over the 8192 hidden units is the sum over 16 consecutive groups of 512 of them
  (out_eq_blocks): this only regroups a finite sum in a commutative monoid, so it holds on the
  extended reals with no finiteness assumption.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx Finset

/-- A rank-2 array read at natural-number coordinates; zero outside its extent. -/
def at2 {a b : ℕ} (A : (⟨2, ![a, b]⟩ : Shape).Idx → EReal) (r k : ℕ) : EReal :=
  if h : r < a ∧ k < b then A (ix2 ⟨r, h.1⟩ ⟨k, h.2⟩) else 0

/-- Inside the extent it is the array's entry. -/
theorem at2_of_lt {a b : ℕ} (A : (⟨2, ![a, b]⟩ : Shape).Idx → EReal) {r k : ℕ} (hr : r < a) (hk : k < b) :
    at2 A r k = A (ix2 ⟨r, hr⟩ ⟨k, hk⟩) := dif_pos ⟨hr, hk⟩

theorem at2_ix {a b : ℕ} (A : (⟨2, ![a, b]⟩ : Shape).Idx → EReal) (r : Fin a) (k : Fin b) :
    at2 A r.val k.val = A (ix2 r k) := at2_of_lt A r.isLt k.isLt

/-- silu u = u · logistic u, on the extended reals. -/
def silu (u : EReal) : EReal := u * Ideal.logistic u

/-- Hidden unit e of row r: silu of the up projection times the gate projection. -/
def hid (X U G : ℕ → ℕ → EReal) (r e : ℕ) : EReal :=
  silu (∑ k : Fin 2048, X r k * U e k) * ∑ k : Fin 2048, X r k * G e k

/-- The contribution of the j-th group of 512 hidden units to entry (r, d). -/
def blockTerm (X U G D : ℕ → ℕ → EReal) (r d j : ℕ) : EReal :=
  ∑ q : Fin 512, hid X U G r (512 * j + q) * D d (512 * j + q)

/-- Entry (r, d) of the result: the down projection of the hidden row. -/
def out (X U G D : ℕ → ℕ → EReal) (r d : ℕ) : EReal :=
  ∑ e : Fin 8192, hid X U G r e * D d e

/-- A sum over a·b consecutive naturals is the sum over a groups of b. -/
theorem sum_range_blocks {M : Type*} [AddCommMonoid M] (b : ℕ) (g : ℕ → M) :
    ∀ a : ℕ, ∑ i ∈ range (a * b), g i = ∑ j ∈ range a, ∑ q ∈ range b, g (b * j + q)
  | 0 => by simp
  | a + 1 => by
    rw [Nat.succ_mul, sum_range_add, sum_range_blocks b g a, sum_range_succ, Nat.mul_comm a b]

/-- The result entry is the sum of its 16 group contributions. -/
theorem out_eq_blocks (X U G D : ℕ → ℕ → EReal) (r d : ℕ) :
    out X U G D r d = ∑ j ∈ range 16, blockTerm X U G D r d j := by
  unfold out blockTerm
  rw [Fin.sum_univ_eq_sum_range (fun e => hid X U G r e * D d e) 8192,
    show (8192 : ℕ) = 16 * 512 from rfl, sum_range_blocks]
  exact sum_congr rfl fun j _ =>
    (Fin.sum_univ_eq_sum_range (fun q => hid X U G r (512 * j + q) * D d (512 * j + q)) 512).symm

end Cert.Spec

end
-- ==== Proof.BlockValue.lean ====
/-
  What the kernel body adds to the output block at one grid point, read at an index.

  With x the 512 × 2048 block of activations, wu and wg the 512 × 2048 blocks of the up and gate
  weights and wd the 2048 × 512 block of the down weights, entry (p, d) of the block the body stores is
      acc (p, d) + ∑_q silu (∑_k x (p,k) · wu (q,k)) · (∑_k x (p,k) · wg (q,k)) · wd (d, q),
  the three block products being plain sums on the extended reals (a product into a zero accumulator
  is the sum of the products), the format changes the identity, and the logistic one function.
-/
import proofs.«136105_j81862076662210_2_alg».proof.Proof.Gen.KernelIdeal.Skeleton
import proofs.«136105_j81862076662210_2_alg».proof.Proof.Spec
import Idealize.ShloMosaic.Lib.Pipeline.Value
import Idealize.ShloMosaic.Lib.ValueIdx
import Idealize.ShloMosaic.PureOps.Ideal.Laws

noncomputable section

namespace Cert.KernelIdeal.BlockValue

open Cert.KernelIdeal Cert.KernelIdeal.Gen Idealize.ShloMosaic Idealize.ShloMosaic.ValueIdx

/-! ## The operand coordinates of the two block products (both contract the last axis of both operands) -/

theorem up_lhs0 (i : S512x512.Idx) (q : dot_S512x2048_S512x2048_S512x512_1_1_0_0_n_n.contr.Idx) : (dot_S512x2048_S512x2048_S512x512_1_1_0_0_n_n.lhsIdx i q 0).val = (i 0).val := by
  unfold DotDims.lhsIdx
  rw [dif_neg (show ¬(0 : Fin S512x2048.rank) ∈ dot_S512x2048_S512x2048_S512x512_1_1_0_0_n_n.lhsBatch by decide),
    dif_pos (show (0 : Fin S512x2048.rank) ∈ dot_S512x2048_S512x2048_S512x512_1_1_0_0_n_n.lhsNonContracting by decide)]
  rfl
theorem up_lhs1 (i : S512x512.Idx) (q : dot_S512x2048_S512x2048_S512x512_1_1_0_0_n_n.contr.Idx) : (dot_S512x2048_S512x2048_S512x512_1_1_0_0_n_n.lhsIdx i q 1).val = (q ⟨0, by decide⟩).val :=
  dot_S512x2048_S512x2048_S512x512_1_1_0_0_n_n.lhsIdx_val_of_single rfl i q
theorem up_rhs0 (i : S512x512.Idx) (q : dot_S512x2048_S512x2048_S512x512_1_1_0_0_n_n.contr.Idx) : (dot_S512x2048_S512x2048_S512x512_1_1_0_0_n_n.rhsIdx i q 0).val = (i 1).val := by
  unfold DotDims.rhsIdx
  rw [dif_neg (show ¬(0 : Fin S512x2048.rank) ∈ dot_S512x2048_S512x2048_S512x512_1_1_0_0_n_n.rhsBatch by decide),
    dif_pos (show (0 : Fin S512x2048.rank) ∈ dot_S512x2048_S512x2048_S512x512_1_1_0_0_n_n.rhsNonContracting by decide)]
  rfl
theorem up_rhs1 (i : S512x512.Idx) (q : dot_S512x2048_S512x2048_S512x512_1_1_0_0_n_n.contr.Idx) : (dot_S512x2048_S512x2048_S512x512_1_1_0_0_n_n.rhsIdx i q 1).val = (q ⟨0, by decide⟩).val :=
  dot_S512x2048_S512x2048_S512x512_1_1_0_0_n_n.rhsIdx_val_of_single rfl i q

theorem down_lhs0 (i : S512x2048.Idx) (q : dot_S512x512_S2048x512_S512x2048_1_1_0_0_n_n.contr.Idx) : (dot_S512x512_S2048x512_S512x2048_1_1_0_0_n_n.lhsIdx i q 0).val = (i 0).val := by
  unfold DotDims.lhsIdx
  rw [dif_neg (show ¬(0 : Fin S512x512.rank) ∈ dot_S512x512_S2048x512_S512x2048_1_1_0_0_n_n.lhsBatch by decide),
    dif_pos (show (0 : Fin S512x512.rank) ∈ dot_S512x512_S2048x512_S512x2048_1_1_0_0_n_n.lhsNonContracting by decide)]
  rfl
theorem down_lhs1 (i : S512x2048.Idx) (q : dot_S512x512_S2048x512_S512x2048_1_1_0_0_n_n.contr.Idx) : (dot_S512x512_S2048x512_S512x2048_1_1_0_0_n_n.lhsIdx i q 1).val = (q ⟨0, by decide⟩).val :=
  dot_S512x512_S2048x512_S512x2048_1_1_0_0_n_n.lhsIdx_val_of_single rfl i q
theorem down_rhs0 (i : S512x2048.Idx) (q : dot_S512x512_S2048x512_S512x2048_1_1_0_0_n_n.contr.Idx) : (dot_S512x512_S2048x512_S512x2048_1_1_0_0_n_n.rhsIdx i q 0).val = (i 1).val := by
  unfold DotDims.rhsIdx
  rw [dif_neg (show ¬(0 : Fin S2048x512.rank) ∈ dot_S512x512_S2048x512_S512x2048_1_1_0_0_n_n.rhsBatch by decide),
    dif_pos (show (0 : Fin S2048x512.rank) ∈ dot_S512x512_S2048x512_S512x2048_1_1_0_0_n_n.rhsNonContracting by decide)]
  rfl
theorem down_rhs1 (i : S512x2048.Idx) (q : dot_S512x512_S2048x512_S512x2048_1_1_0_0_n_n.contr.Idx) : (dot_S512x512_S2048x512_S512x2048_1_1_0_0_n_n.rhsIdx i q 1).val = (q ⟨0, by decide⟩).val :=
  dot_S512x512_S2048x512_S512x2048_1_1_0_0_n_n.rhsIdx_val_of_single rfl i q

/-! ## The block products as sums -/

/-- x · wᵀ of two 512 × 2048 blocks at (p, q): the sum over the 2048 columns. -/
theorem up_apply (x : FVec Ideal S512x2048 .bf16) (w : FVec Ideal S512x2048 .bf16) (p : Fin 512) (q : Fin 512) :
    matmul dot_S512x2048_S512x2048_S512x512_1_1_0_0_n_n none x w (constant (F := Ideal) S512x512 .f32 0x00000000#32) (ix2 p q)
      = ∑ k : Fin 2048, x (ix2 p k) * w (ix2 q k) := by
  refine (Ideal.matmul_constant_zero_apply dot_S512x2048_S512x2048_S512x512_1_1_0_0_n_n none x w (ix2 p q)).trans ?_
  rw [← Equiv.sum_comp (contrEquiv1 dot_S512x2048_S512x2048_S512x512_1_1_0_0_n_n 2048 rfl rfl).symm]
  refine Finset.sum_congr rfl fun k _ => ?_
  have hk := contrEquiv1_symm_val dot_S512x2048_S512x2048_S512x512_1_1_0_0_n_n 2048 rfl rfl k
  have el : dot_S512x2048_S512x2048_S512x512_1_1_0_0_n_n.lhsIdx (ix2 p q) ((contrEquiv1 dot_S512x2048_S512x2048_S512x512_1_1_0_0_n_n 2048 rfl rfl).symm k) = ix2 p k :=
    funext fun c => Fin.ext (by
      match c with
      | ⟨0, _⟩ => exact up_lhs0 _ _
      | ⟨1, _⟩ => exact (up_lhs1 _ _).trans hk)
  have er : dot_S512x2048_S512x2048_S512x512_1_1_0_0_n_n.rhsIdx (ix2 p q) ((contrEquiv1 dot_S512x2048_S512x2048_S512x512_1_1_0_0_n_n 2048 rfl rfl).symm k) = ix2 q k :=
    funext fun c => Fin.ext (by
      match c with
      | ⟨0, _⟩ => exact up_rhs0 _ _
      | ⟨1, _⟩ => exact (up_rhs1 _ _).trans hk)
  rw [el, er]

/-- h · wdᵀ of a 512 × 512 block and a 2048 × 512 block at (p, d): the sum over the 512 columns. -/
theorem down_apply (h : FVec Ideal S512x512 .bf16) (w : FVec Ideal S2048x512 .bf16) (p : Fin 512) (d : Fin 2048) :
    matmul dot_S512x512_S2048x512_S512x2048_1_1_0_0_n_n none h w (constant (F := Ideal) S512x2048 .f32 0x00000000#32) (ix2 p d)
      = ∑ k : Fin 512, h (ix2 p k) * w (ix2 d k) := by
  refine (Ideal.matmul_constant_zero_apply dot_S512x512_S2048x512_S512x2048_1_1_0_0_n_n none h w (ix2 p d)).trans ?_
  rw [← Equiv.sum_comp (contrEquiv1 dot_S512x512_S2048x512_S512x2048_1_1_0_0_n_n 512 rfl rfl).symm]
  refine Finset.sum_congr rfl fun k _ => ?_
  have hk := contrEquiv1_symm_val dot_S512x512_S2048x512_S512x2048_1_1_0_0_n_n 512 rfl rfl k
  have el : dot_S512x512_S2048x512_S512x2048_1_1_0_0_n_n.lhsIdx (ix2 p d) ((contrEquiv1 dot_S512x512_S2048x512_S512x2048_1_1_0_0_n_n 512 rfl rfl).symm k) = ix2 p k :=
    funext fun c => Fin.ext (by
      match c with
      | ⟨0, _⟩ => exact down_lhs0 _ _
      | ⟨1, _⟩ => exact (down_lhs1 _ _).trans hk)
  have er : dot_S512x512_S2048x512_S512x2048_1_1_0_0_n_n.rhsIdx (ix2 p d) ((contrEquiv1 dot_S512x512_S2048x512_S512x2048_1_1_0_0_n_n 512 rfl rfl).symm k) = ix2 d k :=
    funext fun c => Fin.ext (by
      match c with
      | ⟨0, _⟩ => exact down_rhs0 _ _
      | ⟨1, _⟩ => exact (down_rhs1 _ _).trans hk)
  rw [el, er]

/-! ## The stored block at an index -/

/-- The block the body stores, at (p, d): the block it found plus this point's share of the down projection. -/
theorem pay_apply (x : Vec Ideal S512x2048 .f32) (wu wg : Vec Ideal S512x2048 .bf16) (wd : Vec Ideal S2048x512 .bf16)
    (acc : Vec Ideal S512x2048 .f32) (p : Fin 512) (d : Fin 2048) :
    k0_pay2 (F := Ideal) x wu wg wd acc (ix2 p d)
      = acc (ix2 p d) + ∑ q : Fin 512,
          (Cert.Spec.silu (∑ k : Fin 2048, x (ix2 p k) * wu (ix2 q k)) * ∑ k : Fin 2048, x (ix2 p k) * wg (ix2 q k))
            * wd (ix2 d q) := by
  unfold k0_pay2
  simp only [shapeCast_self]
  refine (addf_apply _ _ _).trans ?_
  refine congrArg (acc (ix2 p d) + ·) ?_
  refine (down_apply _ _ p d).trans ?_
  refine Finset.sum_congr rfl fun q _ => ?_
  refine congrArg (· * wd (ix2 d q)) ?_
  refine (truncf_apply (ψ := .bf16) _ bitsLt_bf16_f32 _).trans ?_
  refine (mulf_apply _ _ _).trans ?_
  refine congrArg₂ (· * ·) ?_ (up_apply _ wg p q)
  refine (mulf_apply _ _ _).trans ?_
  exact congrArg (fun u => u * Ideal.logistic u) (up_apply _ wu p q)

/-- The same with the four blocks read out of whole matrices X, U, G, D (at natural-number coordinates): the block of
    rows starting at row R of X, and the J-th group of 512 hidden units of U, G and D. The contribution is then the
    specification's group term. -/
theorem pay_blockTerm (X U G D : ℕ → ℕ → EReal) (R J : ℕ)
    (x : Vec Ideal S512x2048 .f32) (wu wg : Vec Ideal S512x2048 .bf16) (wd : Vec Ideal S2048x512 .bf16)
    (acc : Vec Ideal S512x2048 .f32)
    (hx : ∀ (p : Fin 512) (k : Fin 2048), x (ix2 p k) = X (R + p) k)
    (hu : ∀ (q : Fin 512) (k : Fin 2048), wu (ix2 q k) = U (512 * J + q) k)
    (hg : ∀ (q : Fin 512) (k : Fin 2048), wg (ix2 q k) = G (512 * J + q) k)
    (hd : ∀ (d : Fin 2048) (q : Fin 512), wd (ix2 d q) = D d (512 * J + q))
    (p : Fin 512) (d : Fin 2048) :
    k0_pay2 (F := Ideal) x wu wg wd acc (ix2 p d) = acc (ix2 p d) + Cert.Spec.blockTerm X U G D (R + p) d J := by
  rw [pay_apply]
  unfold Cert.Spec.blockTerm Cert.Spec.hid
  simp only [hx, hu, hg, hd]

end Cert.KernelIdeal.BlockValue

end
-- ==== Proof.Cases.lean ====
/-
  What each of the body's two control cases leaves in the output block.

  At the first point of a row of the grid the body stores the zero block, reads it back and stores
  zero plus this point's contribution; at every later point it reads the block the point before left
  and stores that plus this point's contribution. Both are the body's one arithmetic term, applied to
  the loaded blocks and to the zero block or the block found.
-/
import proofs.«136105_j81862076662210_2_alg».proof.Proof.Gen.KernelIdeal.Frame
import Idealize.ShloMosaic.Lib.Pipeline.Value
import Idealize.ShloMosaic.Lib.Tactic

set_option maxRecDepth 16384

noncomputable section

namespace Cert.KernelIdeal.Cases

open Cert.KernelIdeal Cert.KernelIdeal.Gen Idealize.ShloMosaic Idealize.ShloMosaic.TcCoe Idealize.SL.Sem
open Idealize.ShloMosaic.Pipeline (Dat)

variable {F : FTy → Type} [FloatOps F]

theorem hz : (![0, 0] : Fin 2 → Nat) = fun _ => 0 := funext fun a => by fin_cases a <;> rfl

/-- A later point of a row: the block found, plus this point's contribution. -/
theorem out_B (c : Dev nD) (i : grid0.Coords) (arg2 : Memref sig .tc .vmem S512x2048 .f32) (harg2 : arg2.IsWhole) (arg3 : Memref sig .tc .vmem S512x2048 .bf16) (harg3 : arg3.IsWhole) (arg4 : Memref sig .tc .vmem S512x2048 .bf16) (harg4 : arg4.IsWhole) (arg5 : Memref sig .tc .vmem S2048x512 .bf16) (harg5 : arg5.IsWhole) (arg6 : Memref sig .tc .vmem S512x2048 .f32) (harg6 : arg6.IsWhole) (hc0 : ¬cond0_0 i)
    (x0 : Vec F S512x2048 .f32) (x1 : Vec F S512x2048 .bf16) (x2 : Vec F S512x2048 .bf16) (x3 : Vec F S2048x512 .bf16) (xo4 : Vec F S512x2048 .f32) :
    out0_B_4 c i arg2 harg2 arg3 harg3 arg4 harg4 arg5 harg5 arg6 harg6 hc0 x0 x1 x2 x3 xo4 = k0_pay2 x0 x1 x2 x3 xo4 := by
  unfold out0_B_4
  rw [View.read_writes_eq_canon _ _ _ (cover0_B_4 c i arg2 harg2 arg3 harg3 arg4 harg4 arg5 harg5 arg6 harg6 hc0 x0 x1 x2 x3 xo4)]
  unfold kernelRun0_B
  dsimp only
  rw [View.canon_unit_zero hz]
  simp only [View.readAt_eq_ld, harg2.read_unread, harg3.read_unread, harg4.read_unread, harg5.read_unread,
    harg6.read_unread, View.ld_unit_zero (S := S512x2048) hz, View.ld_unit_zero (S := S2048x512) hz]

/-- The first point of a row: the zero block, plus this point's contribution. -/
theorem out_A (c : Dev nD) (i : grid0.Coords) (arg2 : Memref sig .tc .vmem S512x2048 .f32) (harg2 : arg2.IsWhole) (arg3 : Memref sig .tc .vmem S512x2048 .bf16) (harg3 : arg3.IsWhole) (arg4 : Memref sig .tc .vmem S512x2048 .bf16) (harg4 : arg4.IsWhole) (arg5 : Memref sig .tc .vmem S2048x512 .bf16) (harg5 : arg5.IsWhole) (arg6 : Memref sig .tc .vmem S512x2048 .f32) (harg6 : arg6.IsWhole) (hc0 : cond0_0 i)
    (x0 : Vec F S512x2048 .f32) (x1 : Vec F S512x2048 .bf16) (x2 : Vec F S512x2048 .bf16) (x3 : Vec F S2048x512 .bf16) :
    out0_A_4 c i arg2 harg2 arg3 harg3 arg4 harg4 arg5 harg5 arg6 harg6 hc0 x0 x1 x2 x3 = k0_pay2 x0 x1 x2 x3 (k0_pay1 (F := F)) := by
  unfold out0_A_4
  rw [View.read_writes_eq_canon _ _ _ (cover0_A_4 c i arg2 harg2 arg3 harg3 arg4 harg4 arg5 harg5 arg6 harg6 hc0 x0 x1 x2 x3)]
  unfold kernelRun0_A
  dsimp only
  sl_unfold_words
  rw [View.canon_cons_unit_zero (S := S512x2048) hz, View.readCov_unit_zero (S := S512x2048) _ hz]
  simp only [View.readAt_eq_ld, harg2.read_unread, harg3.read_unread, harg4.read_unread, harg5.read_unread,
    View.ld_unit_zero (S := S512x2048) hz, View.ld_unit_zero (S := S2048x512) hz]

end Cert.KernelIdeal.Cases

end
-- ==== Proof.KernelValue.lean ====
/-
  The array the kernel leaves: entry (r, d) of its 8192 × 2048 result is the specification's out r d.

  The grid is 16 × 16: point t works on the block of rows 512·(t / 16) … of the activations and on the
  (t mod 16)-th group of 512 hidden units. The output block of a row block stays in place across the 16
  points of that row block: after the point with t mod 16 = n it holds the sum of the group terms 0 … n
  (induction on the point), and after the sixteenth, when it is written back, the whole sum over the
  8192 hidden units.
-/
import proofs.«136105_j81862076662210_2_alg».proof.Proof.Gen.KernelIdeal.Frame
import proofs.«136105_j81862076662210_2_alg».proof.Proof.Spec
import proofs.«136105_j81862076662210_2_alg».proof.Proof.BlockValue
import proofs.«136105_j81862076662210_2_alg».proof.Proof.Cases
import Idealize.ShloMosaic.Lib.Pipeline.Value
import Idealize.ShloMosaic.Lib.ValueIdx
import Idealize.ShloMosaic.PureOps.Ideal.Laws

set_option maxRecDepth 16384

noncomputable section

namespace Cert.KernelIdeal.Value

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-! ## The four matrices the region finds, read at natural-number coordinates -/

/-- The activations as an 8192 × 2048 matrix. -/
abbrev Xn (c : Dev nD) : ℕ → ℕ → EReal := Cert.Spec.at2 (a := 8192) (b := 2048) (V m c main_v39)
/-- The quantized up weights. -/
abbrev Un (c : Dev nD) : ℕ → ℕ → EReal := Cert.Spec.at2 (a := 8192) (b := 2048) (V m c main_v12)
/-- The quantized gate weights. -/
abbrev Gn (c : Dev nD) : ℕ → ℕ → EReal := Cert.Spec.at2 (a := 8192) (b := 2048) (V m c main_v25)
/-- The quantized down weights. -/
abbrev Dn (c : Dev nD) : ℕ → ℕ → EReal := Cert.Spec.at2 (a := 2048) (b := 8192) (V m c main_v38)

/-! ## Where each window's block sits at point t -/

/-- The block indices at point t, decided once over the grid: the row block is t / 16, the group t mod 16. -/
theorem idx_facts : ∀ t : Fin cfg0.N,
    win0_0.index t (0 : Fin 2) = t.val / 16 ∧ win0_0.index t (1 : Fin 2) = 0
    ∧ win0_1.index t (0 : Fin 2) = t.val % 16 ∧ win0_1.index t (1 : Fin 2) = 0
    ∧ win0_2.index t (0 : Fin 2) = t.val % 16 ∧ win0_2.index t (1 : Fin 2) = 0
    ∧ win0_3.index t (0 : Fin 2) = 0 ∧ win0_3.index t (1 : Fin 2) = t.val % 16
    ∧ win0_4.index t (0 : Fin 2) = t.val / 16 ∧ win0_4.index t (1 : Fin 2) = 0 :=
  (by decide +kernel : ∀ t : Fin grid0.N, _)

/-- The activation block at point t is rows 512·(t / 16) … of X. -/
theorem iblk_x (c : Dev nD) (t : Fin cfg0.N) (p : Fin 512) (k : Fin 2048) :
    (iblk m c 0 t : Vec Ideal S512x2048 .f32) (ix2 p k) = Xn m c (512 * (t.val / 16) + p) k := by
  have hN : t.val < 256 := lt_of_lt_of_eq t.isLt (show cfg0.N = 256 from N_0)
  have hp := p.isLt
  have hk := k.isLt
  refine Eq.trans ?_ (Cert.Spec.at2_of_lt (V m c main_v39)
    (show 512 * (t.val / 16) + p.val < 8192 by omega) (show k.val < 2048 by omega)).symm
  unfold iblk
  rw [View.read_apply]
  show V m c main_v39 (((cfg0.win 0).blk t).view.emb (ix2 p k)) = V m c main_v39 _
  refine congrArg (V m c main_v39) ?_
  have e0 := (idx_facts t).1
  have e1 := (idx_facts t).2.1
  funext ax; apply Fin.ext
  match ax with
  | ⟨0, _⟩ => show win0_0.index t (0 : Fin 2) * 512 + 1 * p.val = 512 * (t.val / 16) + p.val; rw [e0]; omega
  | ⟨1, _⟩ => show win0_0.index t (1 : Fin 2) * 2048 + 1 * k.val = k.val; rw [e1]; omega

/-- The up-weight block at point t is the rows of U of the (t mod 16)-th group of hidden units. -/
theorem iblk_u (c : Dev nD) (t : Fin cfg0.N) (q : Fin 512) (k : Fin 2048) :
    (iblk m c 1 t : Vec Ideal S512x2048 .bf16) (ix2 q k) = Un m c (512 * (t.val % 16) + q) k := by
  have hN : t.val < 256 := lt_of_lt_of_eq t.isLt (show cfg0.N = 256 from N_0)
  have hq := q.isLt
  have hk := k.isLt
  refine Eq.trans ?_ (Cert.Spec.at2_of_lt (V m c main_v12)
    (show 512 * (t.val % 16) + q.val < 8192 by omega) (show k.val < 2048 by omega)).symm
  unfold iblk
  rw [View.read_apply]
  show V m c main_v12 (((cfg0.win 1).blk t).view.emb (ix2 q k)) = V m c main_v12 _
  refine congrArg (V m c main_v12) ?_
  have e0 := (idx_facts t).2.2.1
  have e1 := (idx_facts t).2.2.2.1
  funext ax; apply Fin.ext
  match ax with
  | ⟨0, _⟩ => show win0_1.index t (0 : Fin 2) * 512 + 1 * q.val = 512 * (t.val % 16) + q.val; rw [e0]; omega
  | ⟨1, _⟩ => show win0_1.index t (1 : Fin 2) * 2048 + 1 * k.val = k.val; rw [e1]; omega

/-- The gate-weight block at point t is the rows of G of the same group. -/
theorem iblk_g (c : Dev nD) (t : Fin cfg0.N) (q : Fin 512) (k : Fin 2048) :
    (iblk m c 2 t : Vec Ideal S512x2048 .bf16) (ix2 q k) = Gn m c (512 * (t.val % 16) + q) k := by
  have hN : t.val < 256 := lt_of_lt_of_eq t.isLt (show cfg0.N = 256 from N_0)
  have hq := q.isLt
  have hk := k.isLt
  refine Eq.trans ?_ (Cert.Spec.at2_of_lt (V m c main_v25)
    (show 512 * (t.val % 16) + q.val < 8192 by omega) (show k.val < 2048 by omega)).symm
  unfold iblk
  rw [View.read_apply]
  show V m c main_v25 (((cfg0.win 2).blk t).view.emb (ix2 q k)) = V m c main_v25 _
  refine congrArg (V m c main_v25) ?_
  have e0 := (idx_facts t).2.2.2.2.1
  have e1 := (idx_facts t).2.2.2.2.2.1
  funext ax; apply Fin.ext
  match ax with
  | ⟨0, _⟩ => show win0_2.index t (0 : Fin 2) * 512 + 1 * q.val = 512 * (t.val % 16) + q.val; rw [e0]; omega
  | ⟨1, _⟩ => show win0_2.index t (1 : Fin 2) * 2048 + 1 * k.val = k.val; rw [e1]; omega

/-- The down-weight block at point t is the columns of D of the same group. -/
theorem iblk_d (c : Dev nD) (t : Fin cfg0.N) (d : Fin 2048) (q : Fin 512) :
    (iblk m c 3 t : Vec Ideal S2048x512 .bf16) (ix2 d q) = Dn m c d (512 * (t.val % 16) + q) := by
  have hN : t.val < 256 := lt_of_lt_of_eq t.isLt (show cfg0.N = 256 from N_0)
  have hd := d.isLt
  have hq := q.isLt
  refine Eq.trans ?_ (Cert.Spec.at2_of_lt (V m c main_v38)
    (show d.val < 2048 by omega) (show 512 * (t.val % 16) + q.val < 8192 by omega)).symm
  unfold iblk
  rw [View.read_apply]
  show V m c main_v38 (((cfg0.win 3).blk t).view.emb (ix2 d q)) = V m c main_v38 _
  refine congrArg (V m c main_v38) ?_
  have e0 := (idx_facts t).2.2.2.2.2.2.1
  have e1 := (idx_facts t).2.2.2.2.2.2.2.1
  funext ax; apply Fin.ext
  match ax with
  | ⟨0, _⟩ => show win0_3.index t (0 : Fin 2) * 2048 + 1 * d.val = d.val; rw [e0]; omega
  | ⟨1, _⟩ => show win0_3.index t (1 : Fin 2) * 512 + 1 * q.val = 512 * (t.val % 16) + q.val; rw [e1]; omega

/-! ## One point's step, and the block after each point -/

/-- The body's term at point t on any block acc found: acc plus the (t mod 16)-th group term of the rows of block t / 16. -/
theorem point_step (c : Dev nD) (t : Fin cfg0.N) (acc : Vec Ideal S512x2048 .f32) (p : Fin 512) (d : Fin 2048) :
    k0_pay2 (F := Ideal) (iblk m c 0 t) (iblk m c 1 t) (iblk m c 2 t) (iblk m c 3 t) acc (ix2 p d)
      = acc (ix2 p d) + Cert.Spec.blockTerm (Xn m c) (Un m c) (Gn m c) (Dn m c) (512 * (t.val / 16) + p) d (t.val % 16) :=
  Cert.KernelIdeal.BlockValue.pay_blockTerm (Xn m c) (Un m c) (Gn m c) (Dn m c) (512 * (t.val / 16)) (t.val % 16)
    (iblk m c 0 t) (iblk m c 1 t) (iblk m c 2 t) (iblk m c 3 t) acc
    (iblk_x m c t) (iblk_u m c t) (iblk_g m c t) (iblk_d m c t) p d

/-- At the first point of a row block the output block is the group term 0. -/
theorem outsAt_first (c : Dev nD) (t : Fin cfg0.N) (h0 : t.val % 16 = 0) (p : Fin 512) (d : Fin 2048) :
    outsAt0 m c t.val t.isLt (ix2 p d)
      = Cert.Spec.blockTerm (Xn m c) (Un m c) (Gn m c) (Dn m c) (512 * (t.val / 16) + p) d (t.val % 16) := by
  refine (congrFun ((outsAt0_A m c t h0).trans
    (Cert.KernelIdeal.Cases.out_A c (grid0.coords t) (ms0_0 t) (hs0_0 t) (ms0_1 t) (hs0_1 t) (ms0_2 t) (hs0_2 t) (ms0_3 t) (hs0_3 t) (ms0_4 t) (hs0_4 t) ((hcond0_0 t).mpr h0) (iblk m c 0 t) (iblk m c 1 t) (iblk m c 2 t) (iblk m c 3 t))) (ix2 p d)).trans ?_
  refine (point_step m c t (k0_pay1 (F := Ideal)) p d).trans ?_
  show Ideal.ofBits .f32 0x00000000#32 + _ = _
  rw [Ideal.ofBits_zero_f32, zero_add]

/-- At a later point it is what the point before left plus this point's group term. -/
theorem outsAt_later (c : Dev nD) (t : Fin cfg0.N) (h0 : ¬t.val % 16 = 0) (p : Fin 512) (d : Fin 2048) :
    outsAt0 m c t.val t.isLt (ix2 p d)
      = outsAt0 m c (t.val - 1) (Nat.lt_of_le_of_lt (Nat.sub_le _ _) t.isLt) (ix2 p d)
        + Cert.Spec.blockTerm (Xn m c) (Un m c) (Gn m c) (Dn m c) (512 * (t.val / 16) + p) d (t.val % 16) := by
  refine (congrFun ((outsAt0_B m c t h0).trans
    (Cert.KernelIdeal.Cases.out_B c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (iblk m c 0 t) (iblk m c 1 t) (iblk m c 2 t) (iblk m c 3 t)
      (outsAt0 m c (t.val - 1) (Nat.lt_of_le_of_lt (Nat.sub_le _ _) t.isLt)))) (ix2 p d)).trans ?_
  exact point_step m c t _ p d

/-- After the point with t mod 16 = n the output block holds the sum of the group terms 0 … n of its rows: by induction
    on the point. -/
theorem outsAt_eq (c : Dev nD) : ∀ (n : ℕ) (h : n < cfg0.N) (p : Fin 512) (d : Fin 2048),
    outsAt0 m c n h (ix2 p d)
      = ∑ j ∈ Finset.range (n % 16 + 1), Cert.Spec.blockTerm (Xn m c) (Un m c) (Gn m c) (Dn m c) (512 * (n / 16) + p) d j
  | 0, h, p, d => by
    refine (outsAt_first m c ⟨0, h⟩ rfl p d).trans ?_
    show _ = ∑ j ∈ Finset.range 1, _
    rw [Finset.sum_range_one]
    rfl
  | n + 1, h, p, d => by
    by_cases h0 : (n + 1) % 16 = 0
    · refine (outsAt_first m c ⟨n + 1, h⟩ h0 p d).trans ?_
      show Cert.Spec.blockTerm _ _ _ _ _ d ((n + 1) % 16) = _
      rw [h0, Finset.sum_range_one]
    · refine (outsAt_later m c ⟨n + 1, h⟩ h0 p d).trans ?_
      have ih := outsAt_eq c n (Nat.lt_of_succ_lt h) p d
      have e1 : n % 16 + 1 = (n + 1) % 16 := by omega
      have e2 : n / 16 = (n + 1) / 16 := by omega
      rw [e1, e2] at ih
      rw [Finset.sum_range_succ]
      exact congrArg (· + Cert.Spec.blockTerm (Xn m c) (Un m c) (Gn m c) (Dn m c) (512 * ((n + 1) / 16) + p) d ((n + 1) % 16)) ih

/-! ## The whole result matrix -/

/-- The 8192 × 2048 matrix the region leaves: the specification's result of the four matrices it found. -/
def Kout (c : Dev nD) : S8192x2048.Idx → EReal :=
  fun i => Cert.Spec.out (Xn m c) (Un m c) (Gn m c) (Dn m c) (i 0).val (i 1).val

/-- What a sixteenth point of a row block writes back is that row block of the result matrix. -/
theorem flushed_eq (c : Dev nD) (t : Fin cfg0.N) (hf : (cfg0.win 4).flush t = true) :
    (dats m 0 c).flushed 4 t = ((cfg0.win 4).blk t).view.read (Elt Ideal) (Kout m c) := by
  have h15 : t.val % 16 = 15 := (flush0_4 t).mp hf
  show (cfg0.win 4).cut (grid0.coords t) ((dats m 0 c).after 4 t) = _
  rw [after0_4]
  funext y
  obtain ⟨p, d, rfl⟩ : ∃ (p : Fin 512) (d : Fin 2048), y = ix2 p d := ⟨y 0, y 1, eq_ix2 y⟩
  show outsAt0 m c t.val t.isLt (ix2 p d) = Kout m c (((cfg0.win 4).blk t).view.emb (ix2 p d))
  have e0 : ((((cfg0.win 4).blk t).view.emb (ix2 p d)) 0).val = 512 * (t.val / 16) + p.val := by
    show win0_4.index t (0 : Fin 2) * 512 + 1 * p.val = _
    rw [(idx_facts t).2.2.2.2.2.2.2.2.1]; omega
  have e1 : ((((cfg0.win 4).blk t).view.emb (ix2 p d)) 1).val = d.val := by
    show win0_4.index t (1 : Fin 2) * 2048 + 1 * d.val = _
    rw [(idx_facts t).2.2.2.2.2.2.2.2.2]; omega
  unfold Kout
  rw [outsAt_eq m c t.val t.isLt p d, h15, Cert.Spec.out_eq_blocks, e0, e1]

/-- An index of the result matrix is in point t's output block iff each coordinate is in the block's range. -/
theorem mem_blk (t : Fin cfg0.N) (i : S8192x2048.Idx) :
    i ∈ ((cfg0.win 4).blk t).view.set ↔ ∀ a : Fin 2, win0_4.index t a * S512x2048.size a ≤ (i a).val
      ∧ (i a).val < win0_4.index t a * S512x2048.size a + S512x2048.size a := by
  show i ∈ ((View.whole main_v40).slice (win0_4.rect t)).set ↔ _
  rw [View.set_slice_whole, Rect.mem_set_unit]
  exact Iff.rfl

/-- Every row r of the result is written back by the sixteenth point of row block r / 512. -/
theorem cover (i : S8192x2048.Idx) :
    ∃ t : Fin cfg0.N, (cfg0.win 4).flush t = true ∧ i ∈ ((cfg0.win 4).blk t).view.set := by
  have hi0 : (i 0).val < 8192 := (i 0).isLt
  have hi1 : (i 1).val < 2048 := (i 1).isLt
  have hlt : 16 * ((i 0).val / 512) + 15 < cfg0.N := by rw [show cfg0.N = 256 from N_0]; omega
  refine ⟨⟨16 * ((i 0).val / 512) + 15, hlt⟩, (flush0_4 _).mpr (by show (16 * ((i 0).val / 512) + 15) % 16 = 15; omega), ?_⟩
  rw [mem_blk]
  have e0 := (idx_facts ⟨16 * ((i 0).val / 512) + 15, hlt⟩).2.2.2.2.2.2.2.2.1
  have e1 := (idx_facts ⟨16 * ((i 0).val / 512) + 15, hlt⟩).2.2.2.2.2.2.2.2.2
  intro a
  match a with
  | ⟨0, _⟩ =>
    show win0_4.index _ (0 : Fin 2) * 512 ≤ (i 0).val ∧ (i 0).val < win0_4.index _ (0 : Fin 2) * 512 + 512
    rw [e0]; show (16 * ((i 0).val / 512) + 15) / 16 * 512 ≤ (i 0).val ∧ (i 0).val < (16 * ((i 0).val / 512) + 15) / 16 * 512 + 512
    omega
  | ⟨1, _⟩ =>
    show win0_4.index _ (1 : Fin 2) * 2048 ≤ (i 1).val ∧ (i 1).val < win0_4.index _ (1 : Fin 2) * 2048 + 2048
    rw [e1]; omega

/-- So the output array ends at the result matrix. -/
theorem final (c : Dev nD) : (dats m 0 c).arrAt 4 cfg0.N = Kout m c :=
  (dats m 0 c).arrAt_eq_of_cover 4 (Kout m c) (flushed_eq m c) cover

end Cert.KernelIdeal.Value

end
-- ==== Proof.HostSide.lean ====
/-
  What the host operations around the kernel compute.

  Before the kernel: the activations are reshaped to an 8192 × 2048 matrix, and each weight matrix W is
  quantized, W + (clip (round (W / s), −1, 1) · s − W) with s = mean |W| + 1e-8 — operation by operation
  the reference's own quantization, the final change of format being the identity on the extended reals.
  After it: the result matrix is reshaped back to 4 × 2048 × 2048.
-/
import proofs.«136105_j81862076662210_2_alg».proof.Proof.Gen.KernelIdeal.Frame
import proofs.«136105_j81862076662210_2_alg».proof.Proof.Gen.ReferenceIdeal.Read
import proofs.«136105_j81862076662210_2_alg».proof.Proof.KernelValue
import Idealize.ShloMosaic.Lib.Pipeline.Value
import Idealize.ShloMosaic.Lib.StableHlo.Run

set_option maxRecDepth 16384

noncomputable section

namespace Cert.KernelIdeal.HostSide

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ) (ρ : Dev nD → PrngReg)

/-- The kernel's first operand is the activations reshaped to 8192 × 2048. -/
theorem V_x (c : Dev nD) :
    (V m c main_v39 : S8192x2048.Idx → EReal)
      = shapeCast S8192x2048 (m ((c : Thread nD τ).loc main_arg0)) shapeCasts_S4x2048x2048_S8192x2048 := by
  dsimp only [V, V0]
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  after_results
  rfl

set_option maxHeartbeats 8000000 in
/-- The kernel's second operand is the reference's quantized up weights (the change of format is the identity). -/
theorem V_u (c : Dev nD) :
    (V m c main_v12 : S8192x2048.Idx → EReal)
      = Cert.ReferenceIdeal.Read.val_main_v11 (F := Ideal) (m ((c : Thread nD τ).loc main_arg1)) := by
  dsimp only [V, V0]
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  after_results_simp
  rfl

set_option maxHeartbeats 8000000 in
/-- The third operand is the reference's quantized gate weights. -/
theorem V_g (c : Dev nD) :
    (V m c main_v25 : S8192x2048.Idx → EReal)
      = Cert.ReferenceIdeal.Read.val_main_v23 (F := Ideal) (m ((c : Thread nD τ).loc main_arg2)) := by
  dsimp only [V, V0]
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  after_results_simp
  rfl

set_option maxHeartbeats 8000000 in
/-- The fourth operand is the reference's quantized down weights. -/
theorem V_d (c : Dev nD) :
    (V m c main_v38 : S2048x8192.Idx → EReal)
      = Cert.ReferenceIdeal.Read.val_main_v35 (F := Ideal) (m ((c : Thread nD τ).loc main_arg3)) := by
  dsimp only [V, V0]
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  after_results_simp
  rfl

/-- After the kernel the result matrix is reshaped to 4 × 2048 × 2048. -/
theorem tail_eq (c : Dev nD) :
    Pipeline.afterTail₀ cfgs (dats m) 0 (V0 m) [hostOps1] c main_v41
      = shapeCast S4x2048x2048 (Cert.KernelIdeal.Value.Kout m c) shapeCasts_S8192x2048_S4x2048x2048 := by
  unfold Pipeline.afterTail₀
  show StableHlo.after hostOps1 _ (Proc.devRef .tc main_v41) = _
  after_results
  have e : Pipeline.withArrays (cfgs 0).spec c (V0 m c) (fun w => (dats m 0 c).arrAt w (cfgs 0).N)
      (Proc.devRef .tc main_v40) = Cert.KernelIdeal.Value.Kout m c :=
    (Pipeline.withArrays_arr spec0 launch0.win.arr_inj c (V0 m c) (fun w => (dats m 0 c).arrAt w cfg0.N) 4).trans
      (Cert.KernelIdeal.Value.final m c)
  rw [e]
  rfl

end Cert.KernelIdeal.HostSide

end
-- ==== Proof.RefValue.lean ====
/-
  The reference's result, index by index, is the specification's out.

  Entry (b, s, d) of the reference's result is the sum over the 8192 hidden units e of
  silu (up) · gate · wd (d, e), with up and gate the contractions of row (b, s) of the activations with
  row e of the quantized up and gate weights — the specification's out at row 2048·b + s of the activations
  read as an 8192 × 2048 matrix. jax writes silu u as u · (1 / (1 + exp (−u))), which is u · logistic u.
-/
import proofs.«136105_j81862076662210_2_alg».proof.Proof.Gen.ReferenceIdeal.Read
import proofs.«136105_j81862076662210_2_alg».proof.Proof.Spec
import Idealize.ShloMosaic.Lib.Pipeline.Value
import Idealize.ShloMosaic.Lib.ValueIdx
import Idealize.ShloMosaic.Lib.IdealHost
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx

theorem hcast : S4x2048x2048.ShapeCasts S8192x2048 := by decide

variable (x0 : S4x2048x2048.Idx → EReal) (x1 x2 : S8192x2048.Idx → EReal) (x3 : S2048x8192.Idx → EReal)

/-- Row 2048·b + s of the activations read as a matrix is row (b, s) of the activations. -/
theorem x_read (b : Fin 4) (s k : Fin 2048) :
    Cert.Spec.at2 (a := 8192) (b := 2048) (shapeCast S8192x2048 x0 hcast) (2048 * b.val + s.val) k.val = x0 (ix3 b s k) := by
  have hb := b.isLt
  have hs := s.isLt
  rw [Cert.Spec.at2_of_lt _ (show 2048 * b.val + s.val < 8192 by omega) k.isLt]
  refine shapeCast_apply x0 hcast _ (ix3 b s k) ?_
  rw [Shape.rowMajor_val_three, Shape.rowMajor_val_two]
  show (b.val * 2048 + s.val) * 2048 + k.val = (2048 * b.val + s.val) * 2048 + k.val
  omega

/-! ## The two projections of row (b, s) onto hidden unit e -/

/-- The reference's up projection at (b, s, e) is the contraction of row 2048·b + s of X with row e of U. -/
theorem up_ref (b : Fin 4) (s : Fin 2048) (e : Fin 8192) :
    val_main_v36 (F := Ideal) x0 x1 (ix3 b s e)
      = ∑ k : Fin 2048, Cert.Spec.at2 (a := 8192) (b := 2048) (shapeCast S8192x2048 x0 hcast) (2048 * b.val + s.val) k
          * Cert.Spec.at2 (a := 8192) (b := 2048) (val_main_v11 (F := Ideal) x1) e k := by
  rw [val_main_v36_apply]
  refine Finset.sum_congr rfl fun k _ => ?_
  have hl : lidx_main_v36 (ix3 b s e) k = ix3 b s k :=
    funext fun a => Fin.ext (by match a with | ⟨0, _⟩ => rfl | ⟨1, _⟩ => rfl | ⟨2, _⟩ => rfl)
  have hr : ridx_main_v36 (ix3 b s e) k = ix2 e k :=
    funext fun a => Fin.ext (by match a with | ⟨0, _⟩ => rfl | ⟨1, _⟩ => rfl)
  rw [hl, hr, x_read, Cert.Spec.at2_ix]

/-- The reference's gate projection, likewise with G. -/
theorem gate_ref (b : Fin 4) (s : Fin 2048) (e : Fin 8192) :
    val_main_v37 (F := Ideal) x0 x2 (ix3 b s e)
      = ∑ k : Fin 2048, Cert.Spec.at2 (a := 8192) (b := 2048) (shapeCast S8192x2048 x0 hcast) (2048 * b.val + s.val) k
          * Cert.Spec.at2 (a := 8192) (b := 2048) (val_main_v23 (F := Ideal) x2) e k := by
  rw [val_main_v37_apply]
  refine Finset.sum_congr rfl fun k _ => ?_
  have hl : lidx_main_v37 (ix3 b s e) k = ix3 b s k :=
    funext fun a => Fin.ext (by match a with | ⟨0, _⟩ => rfl | ⟨1, _⟩ => rfl | ⟨2, _⟩ => rfl)
  have hr : ridx_main_v37 (ix3 b s e) k = ix2 e k :=
    funext fun a => Fin.ext (by match a with | ⟨0, _⟩ => rfl | ⟨1, _⟩ => rfl)
  rw [hl, hr, x_read, Cert.Spec.at2_ix]

/-! ## The result -/

/-- Entry (b, s, d) of the reference's result is the specification's out at row 2048·b + s and column d, of the
    activations read as a matrix and the three quantized weight matrices. -/
theorem ref_apply (b : Fin 4) (s d : Fin 2048) :
    val_main_v40 (F := Ideal) x0 x1 x2 x3 (ix3 b s d)
      = Cert.Spec.out (Cert.Spec.at2 (a := 8192) (b := 2048) (shapeCast S8192x2048 x0 hcast))
          (Cert.Spec.at2 (a := 8192) (b := 2048) (val_main_v11 (F := Ideal) x1))
          (Cert.Spec.at2 (a := 8192) (b := 2048) (val_main_v23 (F := Ideal) x2))
          (Cert.Spec.at2 (a := 2048) (b := 8192) (val_main_v35 (F := Ideal) x3))
          (2048 * b.val + s.val) d.val := by
  rw [val_main_v40_apply]
  unfold Cert.Spec.out
  refine Finset.sum_congr rfl fun e _ => ?_
  have hl : lidx_main_v40 (ix3 b s d) e = ix3 b s e :=
    funext fun a => Fin.ext (by match a with | ⟨0, _⟩ => rfl | ⟨1, _⟩ => rfl | ⟨2, _⟩ => rfl)
  have hr : ridx_main_v40 (ix3 b s d) e = ix2 d e :=
    funext fun a => Fin.ext (by match a with | ⟨0, _⟩ => rfl | ⟨1, _⟩ => rfl)
  rw [hl, hr, Cert.Spec.at2_ix]
  refine congrArg (· * val_main_v35 (F := Ideal) x3 (ix2 d e)) ?_
  rw [val_main_v39_apply, val_main_v38_apply, val_main_call6_v5_apply, val_main_call6_v4_apply,
    val_main_call6_cst_0_apply, val_main_call6_v3_apply, val_main_call6_v2_apply, val_main_call6_cst_apply,
    val_main_call6_v1_apply, val_main_call6_v0_apply, up_ref, gate_ref]
  unfold Cert.Spec.hid Cert.Spec.silu Ideal.logistic
  show (_ * Ideal.div (Ideal.ofBits .f32 0x3F800000#32) (Ideal.ofBits .f32 0x3F800000#32 + Ideal.exp (-_))) * _ = _
  rw [Ideal.ofBits_one_f32]

end Cert.ReferenceIdeal.RefValue

end
-- ==== Proof.Bridge.lean ====
/-
  The kernel's run and the reference's result are one function of the arguments.

  The kernel leaves, reshaped to 4 × 2048 × 2048, the specification's out of the activations read as a matrix and
  of the three quantized weight matrices; entry (b, s, d) of the reshaped array is entry (2048·b + s, d) of the
  matrix, and that is the reference's entry (b, s, d).
-/
import proofs.«136105_j81862076662210_2_alg».proof.Proof.Gen.KernelIdeal.Frame
import proofs.«136105_j81862076662210_2_alg».proof.Proof.Gen.ReferenceIdeal.Read
import proofs.«136105_j81862076662210_2_alg».proof.Proof.KernelValue
import proofs.«136105_j81862076662210_2_alg».proof.Proof.HostSide
import proofs.«136105_j81862076662210_2_alg».proof.Proof.RefValue
import Idealize.ShloMosaic.Lib.Pipeline.Value
import Idealize.ShloMosaic.Lib.ValueIdx

set_option maxRecDepth 16384

noncomputable section

namespace Cert.KernelIdeal.Bridge

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ) (ρ : Dev nD → PrngReg)

/-- The reshaped result matrix is the reference's result of the argument arrays. -/
theorem result_eq (c : Dev nD) :
    shapeCast S4x2048x2048 (Cert.KernelIdeal.Value.Kout m c) shapeCasts_S8192x2048_S4x2048x2048
      = Cert.ReferenceIdeal.Read.val_main_v40 (F := Ideal) (m ((c : Thread nD τ).loc main_arg0)) (m ((c : Thread nD τ).loc main_arg1))
          (m ((c : Thread nD τ).loc main_arg2)) (m ((c : Thread nD τ).loc main_arg3)) := by
  have hX : Cert.KernelIdeal.Value.Xn m c = Cert.Spec.at2 (a := 8192) (b := 2048)
      (shapeCast S8192x2048 (m ((c : Thread nD τ).loc main_arg0)) shapeCasts_S4x2048x2048_S8192x2048) :=
    congrArg (Cert.Spec.at2 (a := 8192) (b := 2048)) (Cert.KernelIdeal.HostSide.V_x m c)
  have hU : Cert.KernelIdeal.Value.Un m c = Cert.Spec.at2 (a := 8192) (b := 2048)
      (Cert.ReferenceIdeal.Read.val_main_v11 (F := Ideal) (m ((c : Thread nD τ).loc main_arg1))) :=
    congrArg (Cert.Spec.at2 (a := 8192) (b := 2048)) (Cert.KernelIdeal.HostSide.V_u m c)
  have hG : Cert.KernelIdeal.Value.Gn m c = Cert.Spec.at2 (a := 8192) (b := 2048)
      (Cert.ReferenceIdeal.Read.val_main_v23 (F := Ideal) (m ((c : Thread nD τ).loc main_arg2))) :=
    congrArg (Cert.Spec.at2 (a := 8192) (b := 2048)) (Cert.KernelIdeal.HostSide.V_g m c)
  have hD : Cert.KernelIdeal.Value.Dn m c = Cert.Spec.at2 (a := 2048) (b := 8192)
      (Cert.ReferenceIdeal.Read.val_main_v35 (F := Ideal) (m ((c : Thread nD τ).loc main_arg3))) :=
    congrArg (Cert.Spec.at2 (a := 2048) (b := 8192)) (Cert.KernelIdeal.HostSide.V_d m c)
  funext i
  obtain ⟨b, s, d, rfl⟩ : ∃ (b : Fin 4) (s d : Fin 2048), i = ix3 b s d := ⟨i 0, i 1, i 2, eq_ix3 i⟩
  have hb := b.isLt
  have hs := s.isLt
  refine Eq.trans ?_ (Cert.ReferenceIdeal.RefValue.ref_apply _ _ _ _ b s d).symm
  refine (shapeCast_apply (Cert.KernelIdeal.Value.Kout m c) shapeCasts_S8192x2048_S4x2048x2048 (ix3 b s d)
    (ix2 ⟨2048 * b.val + s.val, by omega⟩ d) ?_).trans ?_
  · rw [Shape.rowMajor_val_three, Shape.rowMajor_val_two]
    show (2048 * b.val + s.val) * 2048 + d.val = (b.val * 2048 + s.val) * 2048 + d.val
    omega
  · show Cert.Spec.out (Cert.KernelIdeal.Value.Xn m c) (Cert.KernelIdeal.Value.Un m c) (Cert.KernelIdeal.Value.Gn m c)
      (Cert.KernelIdeal.Value.Dn m c) (2048 * b.val + s.val) d.val = _
    rw [hX, hU, hG, hD]

/-- The kernel's run, read: its result at the reference's result of the arguments, the arguments unchanged. -/
theorem run : θ_run defs (onTc (τ := τ) (main (F := Ideal))) ⟨m, fun _ => 0, ρ⟩ fun r => ∀ c : Dev nD,
      r.2.mem ((c : Thread nD τ).loc main_v41)
        = Cert.ReferenceIdeal.Read.val_main_v40 (F := Ideal) (m ((c : Thread nD τ).loc main_arg0)) (m ((c : Thread nD τ).loc main_arg1))
            (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c =>
    ⟨(((h c).2 main_v41 (Pipeline.mem_restRefs_of main_v41 (by decide) (by decide))).trans
        (Cert.KernelIdeal.HostSide.tail_eq m c)).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Bridge

end
-- ==== Proof.lean ====
/-
  The five claims about the SwiGLU feed-forward kernel with ternary-quantized weights and its jnp reference.

  Both programs quantize the three weight matrices on the host by the same operations, so the quantized
  matrices are the same functions of the arguments. With X the activations as an 8192 × 2048 matrix,
  the reference computes  out r d = ∑_e silu (∑_k X r k · U e k) · (∑_k X r k · G e k) · D d e  over the
  8192 hidden units in one pass. The kernel walks a 16 × 16 grid: for each block of 512 rows it visits the
  16 groups of 512 hidden units in turn, each time adding that group's part of the sum to the output block,
  which starts at zero and is written back after the sixteenth group. On the extended reals the sum of the 16
  group sums is the sum over all hidden units (regrouping a finite sum in a commutative monoid: no finiteness
  is needed), a block product into a zero accumulator is the plain sum of products, the changes of float
  format are the identity, and silu written with the logistic or with 1 / (1 + exp (−u)) is one function.

  Frames: the kernel's two frames are the generated runs; the reference's is its generated run with the
  result dropped. The idealization rewrote nothing, so it preserves the kernel trivially.
-/
import proofs.«136105_j81862076662210_2_alg».proof.Defs
import proofs.«136105_j81862076662210_2_alg».proof.Proof.Gen.Kernel
import proofs.«136105_j81862076662210_2_alg».proof.Proof.Gen.Kernel.Skeleton
import proofs.«136105_j81862076662210_2_alg».proof.Proof.Gen.Kernel.Launch
import proofs.«136105_j81862076662210_2_alg».proof.Proof.Gen.Kernel.Points
import proofs.«136105_j81862076662210_2_alg».proof.Proof.Gen.Kernel.Frame
import proofs.«136105_j81862076662210_2_alg».proof.Proof.Gen.KernelIdeal
import proofs.«136105_j81862076662210_2_alg».proof.Proof.Gen.KernelIdeal.Skeleton
import proofs.«136105_j81862076662210_2_alg».proof.Proof.Gen.KernelIdeal.Launch
import proofs.«136105_j81862076662210_2_alg».proof.Proof.Gen.KernelIdeal.Points
import proofs.«136105_j81862076662210_2_alg».proof.Proof.Gen.KernelIdeal.Frame
import proofs.«136105_j81862076662210_2_alg».proof.Proof.Gen.ReferenceIdeal
import proofs.«136105_j81862076662210_2_alg».proof.Proof.Gen.Pre_finite_inputs
import proofs.«136105_j81862076662210_2_alg».proof.Proof.Gen.ReferenceIdeal.Run
import proofs.«136105_j81862076662210_2_alg».proof.Proof.Gen.ReferenceIdeal.Read
import proofs.«136105_j81862076662210_2_alg».proof.Proof.Bridge
import Idealize.ShloMosaic.Adequacy
import Idealize.ShloMosaic.Init

noncomputable section

namespace Cert.Proof

open Idealize.ShloMosaic Idealize.SL.Sem

/-- From memories that agree on the arguments both idealized programs end with the same result: the kernel's run
    ends at the reference's result function of its arguments, the reference's at that function of its own. -/
theorem algebraic : @Cert.algebraic_KernelIdeal_ReferenceIdeal Cert.KernelIdeal.Gen.facts Cert.ReferenceIdeal.Gen.facts
    Cert.Pre_finite_inputs.Gen.facts := by
  intro m ρ m' ρ' _ hagree
  refine ⟨fun c => Cert.ReferenceIdeal.Read.val_main_v40 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.Bridge.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v40_eq, (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
